-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x1600000 32) (main_arg2 : FVec F S128x128 .f32) (main_arg3 : FVec F S128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S2000x128 : Shape := ⟨2, ![2000, 128]⟩
abbrev S1x128 : Shape := ⟨2, ![1, 128]⟩

abbrev nBuf : Space → Nat
  | .hbm => 85
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S50000, .i32⟩
  | .hbm, ⟨6, _⟩ => ⟨S1x1600000, .i32⟩
  | .hbm, ⟨7, _⟩ => ⟨S1600000, .i32⟩
  | .hbm, ⟨8, _⟩ => ⟨S1650000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S_, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x128, .f32⟩
  | .hbm, ⟨57, _⟩ => ⟨S1650000x1, .f32⟩
  | .hbm, ⟨58, _⟩ => ⟨S1650000x128, .f32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v44) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S50000, .i32⟩
  | .hbm, ⟨6, _⟩ => ⟨S1x1600000, .i32⟩
  | .hbm, ⟨7, _⟩ => ⟨S1600000, .i32⟩
  | .hbm, ⟨8, _⟩ => ⟨S1650000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S_, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x128, .f32⟩
  | .hbm, ⟨57, _⟩ => ⟨S1650000x1, .f32⟩
  | .hbm, ⟨58, _⟩ => ⟨S1650000x128, .f32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  transposes_S128x128_S128x128_1_0 : S128x128.Transposes [1, 0] S128x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result array named.

  The program is two pipelined regions among host operations. Every weakly fair execution terminates without a fault and
  ends, on each core, with every unscoped buffer at the contents the fold through the program's segments gives it: the
  launch memory, each stretch of host operations applied in turn, each region's arrays replaced by what its write-backs
  leave. Read at the program's result buffer this says the result is the second region's output array after its last
  grid point; read at the argument buffers it says they end as launched.
-/
import proofs.«130645_j51994874085711_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched: the final thread state holds every unscoped buffer at those
    contents, and the result buffer is one of them. -/
theorem run_out : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-- The last boundary's contents at the result buffer are the second region's output array after its last point. -/
theorem out_eq (c : Dev nD) :
    W6 m ρ c (Proc.devRef .tc main_v61) = (dat1 (V5 m ρ) c).arrAt 6 cfg1.N :=
  W6_arr m ρ c 6

end Cert.KernelIdeal.Out

end
-- ==== Proof.LayerSpec.lean ====
/-
  The dense half of one graph-network layer, as functions of arrays on the extended reals, entry by entry.

  `linRelu h wt` is `max(h · wt, 0)` for `h : [50000, 128]` and `wt : [128, 128]`: entry `(r, c)` is the larger of zero and
  the sum over `k` of `h(r, k) · wt(k, c)`.
  `normTanh y x mean var gamma beta` is the batch normalisation of `y` with given column statistics, an affine map, a
  hyperbolic tangent and a residual: entry `(r, c)` is
  `tanh((y(r, c) − mean(c)) · (var(c) + ε)^(−1/2) · gamma(c) + beta(c)) + x(r, c)`, with `ε` the single-precision word
  nearest to `10⁻⁵`, kept as its word. No law of arithmetic is used anywhere: both programs compute these expressions
  in this very order.
-/
import Idealize.ShloMosaic.PureOps.Ideal
import Idealize.ShloMosaic.PureOps.Ideal.Laws
import Idealize.ShloMosaic.Lib.ValueIdx

open scoped BigOperators

noncomputable section

namespace Cert.Layer

open Idealize.ShloMosaic Idealize.ShloMosaic.ValueIdx

/-- A `[50000, 128]` array of extended reals. -/
abbrev Nodes : Type := FVec Ideal ⟨2, ![50000, 128]⟩ .f32
/-- A `[128, 128]` array of extended reals. -/
abbrev Weights : Type := FVec Ideal ⟨2, ![128, 128]⟩ .f32
/-- A `[128]` array of extended reals. -/
abbrev Cols : Type := FVec Ideal ⟨1, ![128]⟩ .f32
/-- A `[1, 128]` array of extended reals. -/
abbrev Row : Type := FVec Ideal ⟨2, ![1, 128]⟩ .f32

/-- Entry `(r, c)` of `max(h · wt, 0)`. -/
def linReluAt (h : Nodes) (wt : Weights) (r : Fin 50000) (c : Fin 128) : EReal :=
  max (∑ k : Fin 128, h (ix2 r k) * wt (ix2 k c)) (Ideal.ofBits .f32 0x00000000#32)

/-- `max(h · wt, 0)` as an array. -/
def linRelu (h : Nodes) (wt : Weights) : Nodes := fun i => linReluAt h wt (i 0) (i 1)

theorem linRelu_apply (h : Nodes) (wt : Weights) (r : Fin 50000) (c : Fin 128) :
    linRelu h wt (ix2 r c) = linReluAt h wt r c := rfl

/-- Entry `(r, c)` of the normalised, squashed layer output plus the residual. -/
def normTanhAt (y x : Nodes) (mean var gamma beta : Cols) (r : Fin 50000) (c : Fin 128) : EReal :=
  Ideal.tanh ((y (ix2 r c) - mean (ix1 c)) * Ideal.rsqrt (var (ix1 c) + Ideal.ofBits .f32 0x3727C5AC#32) * gamma (ix1 c)
      + beta (ix1 c))
    + x (ix2 r c)

/-- The normalised, squashed layer output plus the residual, as an array. -/
def normTanh (y x : Nodes) (mean var gamma beta : Cols) : Nodes := fun i => normTanhAt y x mean var gamma beta (i 0) (i 1)

theorem normTanh_apply (y x : Nodes) (mean var gamma beta : Cols) (r : Fin 50000) (c : Fin 128) :
    normTanh y x mean var gamma beta (ix2 r c) = normTanhAt y x mean var gamma beta r c := rfl

/-- The one row of a `[1, 128]` array as a `[128]` array. -/
def rowCols (v : Row) : Cols := fun j => v (ix2 (0 : Fin 1) (j 0))

theorem rowCols_apply (v : Row) (c : Fin 128) : rowCols v (ix1 c) = v (ix2 (0 : Fin 1) c) := rfl

end Cert.Layer

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LinearBlocks.lean ====
/-
  The first region, read as one function of its arrays.

  The region runs over 25 grid points; point `t` holds rows `2000·t … 2000·t + 1999` of `h : [50000, 128]`, the whole of
  `wt : [128, 128]`, and stores into the same rows of the output the block whose entry `(p, q)` is the larger of zero and
  the sum over `k` of `h(2000·t + p, k) · wt(k, q)` (the narrowing of the operands before the product is the identity on
  the extended reals). The 25 blocks tile the output, so after the region the output array is `max(h · wt, 0)`, entry by
  entry.
-/
import proofs.«130645_j51994874085711_1_alg».proof.Proof.Gen.KernelIdeal.Frame
import proofs.«130645_j51994874085711_1_alg».proof.Proof.LayerSpec
import proofs.«130645_j51994874085711_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384
open scoped BigOperators

noncomputable section

namespace Cert.KernelIdeal.Lin

open Cert.KernelIdeal Cert.KernelIdeal.Gen Idealize.ShloMosaic Idealize.ShloMosaic.TcCoe Idealize.ShloMosaic.ValueIdx Idealize.SL.Sem
open Idealize.ShloMosaic.Pipeline (Dat Cfg Window)

/-- The contraction's dimension numbers are those of the plain matrix product. -/
theorem dims_plain : dot_S2000x128_S128x128_S2000x128_1_0_0_1_n_n = DotDims.plain 2000 128 128 := rfl

/-- Entry `(p, q)` of what the body stores: the larger of zero and the sum over `k` of `x0(p, k) · x1(k, q)`. -/
theorem pay_apply (x0 : Vec Ideal S2000x128 .f32) (x1 : Vec Ideal S128x128 .f32) (p : Fin 2000) (q : Fin 128) :
    k0_pay1 (F := Ideal) x0 x1 (ix2 p q)
      = max (∑ k : Fin 128, x0 (ix2 p k) * x1 (ix2 k q)) (Ideal.ofBits .f32 0x00000000#32) := by
  unfold k0_pay1
  rw [maximumf_apply, broadcast_apply, dims_plain]
  rw [Cert.MatOps.matmul_plain_zero_apply]
  simp only [truncf_apply, shapeCast_self]
  rfl

/-- An entry of the stored block from the arrays' entries: when row `p` of the left block is row `r` of `h` and
    column `q` of the right block is column `q` of `wt`, entry `(p, q)` is entry `(r, q)` of `max(h · wt, 0)`. -/
theorem pay_entry (h : Cert.Layer.Nodes) (wt : Cert.Layer.Weights) (x0 : Vec Ideal S2000x128 .f32) (x1 : Vec Ideal S128x128 .f32)
    (p : Fin 2000) (q : Fin 128) (r : Fin 50000)
    (h0 : ∀ k : Fin 128, x0 (ix2 p k) = h (ix2 r k)) (h1 : ∀ k : Fin 128, x1 (ix2 k q) = wt (ix2 k q)) :
    k0_pay1 (F := Ideal) x0 x1 (ix2 p q) = Cert.Layer.linRelu h wt (ix2 r q) := by
  rw [pay_apply, Cert.Layer.linRelu_apply]
  unfold Cert.Layer.linReluAt
  simp only [h0, h1]

theorem zero_offsets : (![0, 0] : Fin 2 → Nat) = fun _ => 0 := funext fun a => by fin_cases a <;> rfl

/-- The index maps over the grid: the rows' window and the output's sit at block `(t, 0)`, the weights' at `(0, 0)`. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of `max(h · wt, 0)` of the two arrays as the region finds them. -/
theorem flushed_eq (c : Dev nD) (t : Fin cfg0.N) :
    (dat0 (F := Ideal) V c).flushed 2 t
      = ((cfg0.win 2).blk t).view.read (Elt Ideal) (Cert.Layer.linRelu (V c main_v44) (V c main_v45)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := idx_facts t
  have hN : cfg0.N = 25 := N_0
  have ht : t.val < 25 := hN ▸ t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  have hr : t.val * 2000 + p.val < 50000 := by omega
  refine (pay_entry (V c main_v44) (V c main_v45) (iblk0 V c 0 t) (iblk0 V c 1 t) p q ⟨t.val * 2000 + p.val, hr⟩ ?_ ?_).trans ?_
  · intro k
    have hk : k.val < 128 := k.isLt
    show V c main_v44 (((cfg0.win 0).blk t).view.emb (ix2 p k)) = _
    congr 1
    funext a
    apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    have hk : k.val < 128 := k.isLt
    show V c main_v45 (((cfg0.win 1).blk t).view.emb (ix2 k q)) = _
    congr 1
    funext a
    apply Fin.ext
    match a with
    | ⟨0, _⟩ => show win0_1.index t (0 : Fin 2) * 128 + 1 * k.val = k.val; omega
    | ⟨1, _⟩ => show win0_1.index t (1 : Fin 2) * 128 + 1 * q.val = q.val; omega
  · show _ = Cert.Layer.linRelu (V c main_v44) (V c main_v45) (((cfg0.win 2).blk t).view.emb (ix2 p q))
    congr 1
    funext a
    apply Fin.ext
    match a with
    | ⟨0, _⟩ => show t.val * 2000 + p.val = win0_2.index t (0 : Fin 2) * 2000 + 1 * p.val; omega
    | ⟨1, _⟩ => show q.val = win0_2.index t (1 : Fin 2) * 128 + 1 * q.val; omega
/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v46).slice (win0_2.rect t)).set ↔ _
  rw [View.set_slice_whole, Rect.mem_set_unit]
  exact Iff.rfl

/-- Every index of the array is in some point's block: row `r` is in the block of point `r / 2000`. -/
theorem cover (i : S50000x128.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is `max(h · wt, 0)` of the two arrays as the region finds them. -/
theorem arr_eq (c : Dev nD) :
    (dat0 (F := Ideal) V c).arrAt 2 cfg0.N = Cert.Layer.linRelu (V c main_v44) (V c main_v45) :=
  (dat0 (F := Ideal) V c).arrAt_eq_of_cover 2 _ (fun t _ => flushed_eq V c t) cover
end

end Cert.KernelIdeal.Lin

end
-- ==== Proof.NormBlocks.lean ====
/-
  The normalisation region's output array, block by block.

  The region runs over 25 grid points. At point `t` its body reads rows `2000·t … 2000·t + 1999` of two `[50000, 128]` arrays
  `y` and `x`, the single rows of four `[1, 128]` arrays `mean`, `var`, `gamma`, `beta`, and writes to the same rows of the output
  the entries `tanh((y(r, c) − mean(c)) · (var(c) + ε)^(−1/2) · gamma(c) + beta(c)) + x(r, c)`.
  `pay_apply` reads the stored block at an entry; `block_eq` says the stored block is the layer function read through the block's
  place in the array; `flushed_eq` says so for what each point writes back; `cover` says the 25 blocks fill the array;
  `arr_eq` concludes that the output array is the layer function of the six arrays, entry by entry.
-/
import proofs.«130645_j51994874085711_1_alg».proof.Proof.Gen.KernelIdeal.Frame
import proofs.«130645_j51994874085711_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm

open Cert.KernelIdeal Cert.KernelIdeal.Gen Idealize.ShloMosaic Idealize.ShloMosaic.TcCoe Idealize.ShloMosaic.ValueIdx Idealize.SL.Sem
open Idealize.ShloMosaic.Pipeline (Dat Cfg Window)

/-- Entry (p, q) of the block the body stores. -/
theorem pay_apply (v0 v2 : Vec Ideal S2000x128 .f32) (v3 v5 v7 v9 : Vec Ideal S1x128 .f32) (p : Fin 2000) (q : Fin 128) :
    k1_pay1 (F := Ideal) v0 v2 v3 v5 v7 v9 (ix2 p q)
      = Ideal.tanh ((v0 (ix2 p q) - v3 (ix2 (0 : Fin 1) q)) * Ideal.rsqrt (v5 (ix2 (0 : Fin 1) q) + Ideal.ofBits .f32 0x3727C5AC#32) * v7 (ix2 (0 : Fin 1) q)
          + v9 (ix2 (0 : Fin 1) q)) + v2 (ix2 p q) := by
  unfold k1_pay1
  simp only [shapeCast_self]
  show Ideal.tanh ((v0 (ix2 p q) - broadcastTo S2000x128 v3 broadcasts_S1x128_S2000x128 (ix2 p q))
        * broadcastTo S2000x128 (rsqrt (F := Ideal) (addf (F := Ideal) v5 (broadcast S1x128 (Scalar.ofBits (F := Ideal) .f32 0x3727C5AC#32)))) broadcasts_S1x128_S2000x128 (ix2 p q)
        * broadcastTo S2000x128 v7 broadcasts_S1x128_S2000x128 (ix2 p q)
        + broadcastTo S2000x128 v9 broadcasts_S1x128_S2000x128 (ix2 p q)) + v2 (ix2 p q) = _
  rw [broadcastTo_1b_ab_apply, broadcastTo_1b_ab_apply, broadcastTo_1b_ab_apply, broadcastTo_1b_ab_apply]
  rfl

/-- The zero offsets, however they are spelt. -/
theorem hz : (![0, 0] : Fin 2 → Nat) = fun _ => 0 := funext fun a => by fin_cases a <;> rfl

/-- The block the body stores, as the layer function read through a map `e` of block indices to array indices that keeps
    the column: the two full blocks are the arrays `y`, `x` read through `e`, the four rows are the whole row arrays. -/
theorem block_eq (y x : Cert.Layer.Nodes) (mean var gamma beta : Cert.Layer.Row)
    (x0 x1 : Vec Ideal S2000x128 .f32) (x2 x3 x4 x5 : Vec Ideal S1x128 .f32)
    (e : S2000x128.Idx → S50000x128.Idx)
    (h0 : ∀ j, x0 j = y (e j)) (h1 : ∀ j, x1 j = x (e j)) (he : ∀ j, (e j 1).val = (j 1).val)
    (h2 : x2 = mean) (h3 : x3 = var) (h4 : x4 = gamma) (h5 : x5 = beta) :
    k1_pay1 (F := Ideal) x0 x1 x2 x3 x4 x5
      = fun j => Cert.Layer.normTanh y x (Cert.Layer.rowCols mean) (Cert.Layer.rowCols var) (Cert.Layer.rowCols gamma) (Cert.Layer.rowCols beta) (e j) := by
  subst h2 h3 h4 h5
  funext j
  obtain ⟨p, q, rfl⟩ : ∃ (p : Fin 2000) (q : Fin 128), j = ix2 p q := ⟨j 0, j 1, eq_ix2 j⟩
  rw [pay_apply, h0, h1]
  have hq : (e (ix2 p q) 1).val = q.val := he (ix2 p q)
  generalize e (ix2 p q) = i at hq
  obtain ⟨r, q', rfl⟩ : ∃ (r : Fin 50000) (q' : Fin 128), i = ix2 r q' := ⟨i 0, i 1, eq_ix2 i⟩
  obtain rfl : q' = q := Fin.ext hq
  rfl

/-- The index maps at every grid point: the two full input windows move with the output window, whose block row is the
    point's number; the four row windows stay at block (0, 0). -/
theorem idx_facts : ∀ t : Fin cfg1.N,
    win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the layer function of the arrays as the region finds them. -/
theorem flushed_eq (c : Dev nD) (t : Fin cfg1.N) :
    (dat1 (F := Ideal) V c).flushed 6 t
      = ((cfg1.win 6).blk t).view.read (Elt Ideal)
          (Cert.Layer.normTanh (V c main_v46) (V c main_arg0) (Cert.Layer.rowCols (V c main_v57)) (Cert.Layer.rowCols (V c main_v58))
            (Cert.Layer.rowCols (V c main_v59)) (Cert.Layer.rowCols (V c main_v60))) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S1x128) hz]
  obtain ⟨a0, b0, a1, b1, a2, b2, a3, b3, a4, b4, a5, b5, a6, b6⟩ := idx_facts t
  refine block_eq (V c main_v46) (V c main_arg0) (V c main_v57) (V c main_v58) (V c main_v59) (V c main_v60)
    (iblk1 V c 0 t) (iblk1 V c 1 t) (iblk1 V c 2 t) (iblk1 V c 3 t) (iblk1 V c 4 t) (iblk1 V c 5 t)
    (fun j => ((cfg1.win 6).blk t).view.emb j) ?_ ?_ ?_ ?_ ?_ ?_ ?_
  · intro j
    show V c main_v46 (((cfg1.win 0).blk t).view.emb j) = V c main_v46 (((cfg1.win 6).blk t).view.emb j)
    refine congrArg _ ?_
    funext a; apply Fin.ext
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * (j 1).val = win1_6.index t (1 : Fin 2) * 128 + 1 * (j 1).val; omega
  · intro j
    show V c main_arg0 (((cfg1.win 1).blk t).view.emb j) = V c main_arg0 (((cfg1.win 6).blk t).view.emb j)
    refine congrArg _ ?_
    funext a; apply Fin.ext
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 128 + 1 * (j 1).val = win1_6.index t (1 : Fin 2) * 128 + 1 * (j 1).val; omega
  · intro j
    show win1_6.index t (1 : Fin 2) * 128 + 1 * (j 1).val = (j 1).val
    omega
  · funext j
    show V c main_v57 (((cfg1.win 2).blk t).view.emb j) = V c main_v57 j
    refine congrArg _ ?_
    funext a; apply Fin.ext
    match a with
    | ⟨0, _⟩ => show win1_2.index t (0 : Fin 2) * 1 + 1 * (j 0).val = (j 0).val; omega
    | ⟨1, _⟩ => show win1_2.index t (1 : Fin 2) * 128 + 1 * (j 1).val = (j 1).val; omega
  · funext j
    show V c main_v58 (((cfg1.win 3).blk t).view.emb j) = V c main_v58 j
    refine congrArg _ ?_
    funext a; apply Fin.ext
    match a with
    | ⟨0, _⟩ => show win1_3.index t (0 : Fin 2) * 1 + 1 * (j 0).val = (j 0).val; omega
    | ⟨1, _⟩ => show win1_3.index t (1 : Fin 2) * 128 + 1 * (j 1).val = (j 1).val; omega
  · funext j
    show V c main_v59 (((cfg1.win 4).blk t).view.emb j) = V c main_v59 j
    refine congrArg _ ?_
    funext a; apply Fin.ext
    match a with
    | ⟨0, _⟩ => show win1_4.index t (0 : Fin 2) * 1 + 1 * (j 0).val = (j 0).val; omega
    | ⟨1, _⟩ => show win1_4.index t (1 : Fin 2) * 128 + 1 * (j 1).val = (j 1).val; omega
  · funext j
    show V c main_v60 (((cfg1.win 5).blk t).view.emb j) = V c main_v60 j
    refine congrArg _ ?_
    funext a; apply Fin.ext
    match a with
    | ⟨0, _⟩ => show win1_5.index t (0 : Fin 2) * 1 + 1 * (j 0).val = (j 0).val; omega
    | ⟨1, _⟩ => show win1_5.index t (1 : Fin 2) * 128 + 1 * (j 1).val = (j 1).val; omega

end

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v61).slice (win1_6.rect t)).set ↔ _
  rw [View.set_slice_whole, Rect.mem_set_unit]
  exact Iff.rfl

/-- Every index of the array is in some point's block: row `r` is in the block of point `r / 2000`, and every point writes back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, -, -, a6, b6⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The output array after the region's last point is the layer function of the arrays as the region finds them. -/
theorem arr_eq (V : (c : Dev nD) → (b : Ref sig .tc) → Buf (Elt Ideal) ((c : Thread nD τ).loc b)) (c : Dev nD) :
    (dat1 (F := Ideal) V c).arrAt 6 cfg1.N
      = Cert.Layer.normTanh (V c main_v46) (V c main_arg0) (Cert.Layer.rowCols (V c main_v57)) (Cert.Layer.rowCols (V c main_v58))
          (Cert.Layer.rowCols (V c main_v59)) (Cert.Layer.rowCols (V c main_v60)) :=
  (dat1 (F := Ideal) V c).arrAt_eq_of_cover 6 _ (fun t _ => flushed_eq V c t) cover

end Cert.KernelIdeal.Norm

end
-- ==== Proof.RefRead.lean ====
/-
  The reference program's result, read at an index, is the layer specification of its own intermediate arrays.

  After the aggregation the reference computes `y = max(h · Wᵀ, 0)`, the column means and (biased) column variances of `y`,
  and `tanh((y − mean) · (var + ε)^(−1/2) · gamma + beta) + x`, broadcasting each `[128]` statistic over the rows through a
  `[1, 128]` row. Entry `(r, c)` of a `[128]` array broadcast this way is its entry `c`; the general dot at `(r, c)` is the sum
  over `k` of `h(r, k) · Wᵀ(k, c)`. So the result is `normTanh y x (mean y) (var y) gamma beta` with `y = linRelu h Wᵀ`,
  the statistics left as the host's own operations of `y` (never opened here).
-/
import proofs.«130645_j51994874085711_1_alg».proof.Proof.RefReadPatched
import proofs.«130645_j51994874085711_1_alg».proof.Proof.LayerSpec

noncomputable section

namespace Cert.ReferenceIdeal.Layer

open Cert.ReferenceIdeal Cert.ReferenceIdeal.Gen Cert.ReferenceIdeal.ReadP
open Idealize.ShloMosaic Idealize.ShloMosaic.TcCoe Idealize.ShloMosaic.ValueIdx Idealize.SL.Sem Idealize.ShloMosaic.StableHlo

variable {F : FTy → Type} [FloatOps F]

/-! ## The column statistics, as the host computes them -/

/-- A `[128]` array spread over the `50000` rows (through a `[1, 128]` row). -/
def overRows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The column means of `y`: the column sums from zero, divided by the word of `50000`. -/
def colMean (y : (⟨S50000x128, .f32⟩ : BufTy).Contents (Elt F)) : (⟨S128, .f32⟩ : BufTy).Contents (Elt F) :=
  Host.divf (Host.reduceAdd y (constant S_ .f32 0x00000000#32) reducesTo_S50000x128_S128_d0 h_S_)
    (broadcastInDim S128 ![] bcast_S_S128 (constant S_ .f32 0x47435000#32))

/-- The biased column variances of `y`: the column means of the squared deviations from the column means. -/
def colVar (y : (⟨S50000x128, .f32⟩ : BufTy).Contents (Elt F)) : (⟨S128, .f32⟩ : BufTy).Contents (Elt F) :=
  Host.divf (Host.reduceAdd (mulf (subf y (overRows (colMean y))) (subf y (overRows (colMean y))))
      (constant S_ .f32 0x00000000#32) reducesTo_S50000x128_S128_d0 h_S_)
    (broadcastInDim S128 ![] bcast_S_S128 (constant S_ .f32 0x47435000#32))

/-- The reference's mean stage is `colMean` of its rectified product. -/
theorem mean_eq (x0 : (⟨S50000x128, .f32⟩ : BufTy).Contents (Elt F)) (x1 : (⟨S2x1600000, .i32⟩ : BufTy).Contents (Elt F))
    (x2 : (⟨S128x128, .f32⟩ : BufTy).Contents (Elt F)) :
    val_main_v50 (F := F) x0 x1 x2 = colMean (val_main_v47 (F := F) x0 x1 x2) := rfl

/-- The reference's variance stage is `colVar` of its rectified product. -/
theorem var_eq (x0 : (⟨S50000x128, .f32⟩ : BufTy).Contents (Elt F)) (x1 : (⟨S2x1600000, .i32⟩ : BufTy).Contents (Elt F))
    (x2 : (⟨S128x128, .f32⟩ : BufTy).Contents (Elt F)) :
    val_main_v57 (F := F) x0 x1 x2 = colVar (val_main_v47 (F := F) x0 x1 x2) := rfl

/-! ## Index maps -/

theorem lidx_eq (r : Fin 50000) (c k : Fin 128) : lidx_main_v46 (ix2 r c) k = ix2 r k :=
  funext fun a => Fin.ext (by match a with | ⟨0, _⟩ => rfl | ⟨1, _⟩ => rfl)
theorem ridx_eq (r : Fin 50000) (c k : Fin 128) : ridx_main_v46 (ix2 r c) k = ix2 k c :=
  funext fun a => Fin.ext (by match a with | ⟨0, _⟩ => rfl | ⟨1, _⟩ => rfl)
theorem row59 (r : Fin 50000) (c : Fin 128) : idx_main_v58 (idx_main_v59 (ix2 r c)) = ix1 c :=
  funext fun a => Fin.ext (by match a with | ⟨0, _⟩ => rfl)
theorem row65 (r : Fin 50000) (c : Fin 128) : idx_main_v64 (idx_main_v65 (ix2 r c)) = ix1 c :=
  funext fun a => Fin.ext (by match a with | ⟨0, _⟩ => rfl)
theorem row68 (r : Fin 50000) (c : Fin 128) : idx_main_v67 (idx_main_v68 (ix2 r c)) = ix1 c :=
  funext fun a => Fin.ext (by match a with | ⟨0, _⟩ => rfl)
theorem row71 (r : Fin 50000) (c : Fin 128) : idx_main_v70 (idx_main_v71 (ix2 r c)) = ix1 c :=
  funext fun a => Fin.ext (by match a with | ⟨0, _⟩ => rfl)

/-! ## The two stages -/

/-- The rectified product is `linRelu` of the aggregated features and the transposed weights. -/
theorem relu_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) :
    val_main_v47 (F := Ideal) x0 x1 x2
      = Cert.Layer.linRelu (val_main_v44 (F := Ideal) x0 x1) (val_main_v45 (F := Ideal) x2) := by
  funext i
  obtain ⟨r, c, rfl⟩ : ∃ (r : Fin 50000) (c : Fin 128), i = ix2 r c := ⟨i 0, i 1, eq_ix2 i⟩
  rw [val_main_v47_apply, val_main_v46_apply, val_main_call1_v0_apply, val_main_call1_cst_apply]
  simp only [lidx_eq, ridx_eq]
  rfl

/-- The result is `normTanh` of the rectified product, the input, the two statistics and the affine parameters. -/
theorem out_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 x4 : (⟨S128, .f32⟩ : BufTy).Contents (Elt Ideal)) :
    val_main_v74 (F := Ideal) x0 x1 x2 x3 x4
      = Cert.Layer.normTanh (val_main_v47 (F := Ideal) x0 x1 x2) x0 (val_main_v50 (F := Ideal) x0 x1 x2)
          (val_main_v57 (F := Ideal) x0 x1 x2) x3 x4 := by
  funext i
  obtain ⟨r, c, rfl⟩ : ∃ (r : Fin 50000) (c : Fin 128), i = ix2 r c := ⟨i 0, i 1, eq_ix2 i⟩
  rw [val_main_v74_apply, val_main_v73_apply, val_main_v72_apply, val_main_v69_apply, val_main_v66_apply, val_main_v60_apply,
    val_main_v59_apply, val_main_v58_apply, val_main_v65_apply, val_main_v64_apply, val_main_v63_apply, val_main_v62_apply,
    val_main_v61_apply, val_main_cst_14_apply, val_main_v68_apply, val_main_v67_apply, val_main_v71_apply, val_main_v70_apply]
  simp only [row59, row65, row68, row71]
  rw [Cert.Layer.normTanh_apply]
  unfold Cert.Layer.normTanhAt
  simp only [Ideal.addf_def, Ideal.mulf_def, Ideal.subf_def, Ideal.hostUnary_tanh_def, Ideal.hostUnary_rsqrt_def, Ideal.ofBits_def]

/-- The reference's result as one function of its arguments' arrays. -/
theorem result_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 x4 : (⟨S128, .f32⟩ : BufTy).Contents (Elt Ideal)) :
    val_main_v74 (F := Ideal) x0 x1 x2 x3 x4
      = Cert.Layer.normTanh (Cert.Layer.linRelu (val_main_v44 (F := Ideal) x0 x1) (val_main_v45 (F := Ideal) x2)) x0
          (colMean (F := Ideal) (Cert.Layer.linRelu (val_main_v44 (F := Ideal) x0 x1) (val_main_v45 (F := Ideal) x2)))
          (colVar (F := Ideal) (Cert.Layer.linRelu (val_main_v44 (F := Ideal) x0 x1) (val_main_v45 (F := Ideal) x2))) x3 x4 := by
  rw [out_eq, mean_eq, var_eq, relu_eq]

end Cert.ReferenceIdeal.Layer

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.HostBetween.lean ====
/-
  What the host operations of the idealized kernel's program leave at the buffers its two regions read.

  Before the first region the program computes, from the arguments alone, the aggregated features `h` and the transposed
  weights: the very operations, in the very order, of the reference, so the two arrays are the reference's own stages of the
  launch contents. Between the regions it computes the column means and variances of the first region's output `y` — again
  the reference's operations, applied to `y` — and lays each of the four `[128]` arrays (mean, variance, gamma, beta) out
  as a `[1, 128]` row; the row of such a layout, read back as a `[128]` array, is the array. No operation before the second
  region writes the first region's output or an argument.
-/
import proofs.«130645_j51994874085711_1_alg».proof.Proof.Gen.KernelIdeal.Frame
import proofs.«130645_j51994874085711_1_alg».proof.Proof.RefRead
import Idealize.ShloMosaic.Lib.ValueLayout
import proofs.«130645_j51994874085711_1_alg».proof.Proof.LibAfterAssign

set_option maxRecDepth 16384

noncomputable section

namespace Cert.KernelIdeal.Between

open Cert.KernelIdeal Cert.KernelIdeal.Gen
open Idealize.ShloMosaic Idealize.ShloMosaic.TcCoe Idealize.ShloMosaic.ValueIdx Idealize.SL.Sem Idealize.ShloMosaic.StableHlo

/-! ## Before the first region

The host line before the first region is cut after its first seven operations, which build the two index lists (the
edge list's two rows, each followed by the self-loops `0 … 49999`). What follows reads those two lists, the input
features and the weights, and nothing else of what came before. -/

section Prefix

variable {F : FTy → Type} [FloatOps F]

/-- The first seven host operations: the two index lists. -/
abbrev headOps : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- The host operations after them, up to the call of the selection function. -/
abbrev tailOps : List (HloOp τ sig (Elt F)) :=
  [ StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v3 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x2B8CBCCC#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32) ]

theorem hostOps0_split : (hostOps0 : List (HloOp τ sig (Elt F))) = headOps ++ tailOps := rfl

/-- The first index list, after the first seven operations, is the reference's. -/
theorem head_rows (V : Valuation τ sig (Elt F)) :
    StableHlo.after headOps V (Proc.devRef .tc main_v3) = Cert.ReferenceIdeal.ReadP.val_main_v3 (F := F) (V (Proc.devRef .tc main_arg1)) := by
  after_results_simp
  rfl

/-- The second index list, after the first seven operations, is the reference's. -/
theorem head_cols (V : Valuation τ sig (Elt F)) :
    StableHlo.after headOps V (Proc.devRef .tc main_v6) = Cert.ReferenceIdeal.ReadP.val_main_v6 (F := F) (V (Proc.devRef .tc main_arg1)) := by
  after_results_simp
  rfl

/-- The first seven operations do not write the input features. -/
theorem head_keeps_x (V : Valuation τ sig (Elt F)) :
    StableHlo.after headOps V (Proc.devRef .tc main_arg0) = V (Proc.devRef .tc main_arg0) := by
  after_results_simp

/-- From contents holding the reference's two index lists and the input features, the rest of the host line before the
    first region leaves the reference's aggregated features. -/
theorem features_of (Vh : Valuation τ sig (Elt F)) (x0 : (⟨S50000x128, .f32⟩ : BufTy).Contents (Elt F))
    (x1 : (⟨S2x1600000, .i32⟩ : BufTy).Contents (Elt F))
    (h3 : Vh (Proc.devRef .tc main_v3) = Cert.ReferenceIdeal.ReadP.val_main_v3 (F := F) x1)
    (h6 : Vh (Proc.devRef .tc main_v6) = Cert.ReferenceIdeal.ReadP.val_main_v6 (F := F) x1)
    (h0 : Vh (Proc.devRef .tc main_arg0) = x0) :
    StableHlo.after hostOps0_2 (StableHlo.after hostOps0_1 (StableHlo.after tailOps Vh)) (Proc.devRef .tc main_v44)
      = Cert.ReferenceIdeal.ReadP.val_main_v44 (F := F) x0 x1 := by
  after_results_simp
  rw [h3, h6, h0]
  rfl

end Prefix

variable (m : (ℓ : Loc nD τ sig) → Buf (Elt Ideal) ℓ) (ρ : Dev nD → PrngReg)

/-- The first region finds, as its first operand, the reference's aggregated features of the launch contents. -/
theorem entry_features (c : Dev nD) :
    V3 m ρ c main_v44 = Cert.ReferenceIdeal.ReadP.val_main_v44 (F := Ideal) (m ((c : Thread nD τ).loc main_arg0)) (m ((c : Thread nD τ).loc main_arg1)) := by
  show StableHlo.after hostOps0_2 (StableHlo.after hostOps0_1 (StableHlo.after hostOps0 (W0 m ρ c))) (Proc.devRef .tc main_v44) = _
  rw [hostOps0_split, Cert.Lib.AfterAssign.after_append]
  exact features_of _ _ _ (head_rows _) (head_cols _) (head_keeps_x _)

/-- The first region finds, as its second operand, the transposed weights. -/
theorem entry_weights (c : Dev nD) :
    V3 m ρ c main_v45 = Cert.ReferenceIdeal.ReadP.val_main_v45 (F := Ideal) (m ((c : Thread nD τ).loc main_arg2)) := by
  show StableHlo.after hostOps0_2 (StableHlo.after hostOps0_1 (StableHlo.after hostOps0 (W0 m ρ c))) (Proc.devRef .tc main_v45) = _
  after_results_simp
  rfl

/-! ## Between the regions -/

/-- The second region finds the first region's output array as the first region left it. -/
theorem entry_y (c : Dev nD) : V5 m ρ c main_v46 = (dat0 (V3 m ρ) c).arrAt 2 cfg0.N := by
  have e : V5 m ρ c main_v46 = W4 m ρ c (Proc.devRef .tc main_v46) := by
    show StableHlo.after hostOps1 (W4 m ρ c) (Proc.devRef .tc main_v46) = _
    after_results_simp
  exact e.trans (W4_arr m ρ c 2)

/-- The second region finds the input features as launched. -/
theorem entry_x (c : Dev nD) : V5 m ρ c main_arg0 = m ((c : Thread nD τ).loc main_arg0) :=
  (((W6_arr m ρ c 1).trans (((dat1 (V5 m ρ) c).arrAt_in 1 rfl _).trans (A_eq1 (V5 m ρ) c 1))).symm).trans (W6_main_arg0 m ρ c)

/-- A `[128]` array laid out as a `[1, 128]` row, its row read back, is the array. -/
theorem rowCols_cast (v : (⟨1, ![128]⟩ : Shape).Idx → EReal) (h : (⟨1, ![128]⟩ : Shape).ShapeCasts ⟨2, ![1, 128]⟩) :
    Cert.Layer.rowCols (shapeCast ⟨2, ![1, 128]⟩ v h) = v := by
  funext j
  obtain ⟨q, rfl⟩ : ∃ q : Fin 128, j = ix1 q := ⟨j 0, eq_ix1 j⟩
  exact shapeCast_a_1a_apply v h 0 q

/-- The mean row the second region finds is the column means of the first region's output. -/
theorem entry_mean (c : Dev nD) :
    Cert.Layer.rowCols (V5 m ρ c main_v57) = Cert.ReferenceIdeal.Layer.colMean (F := Ideal) (W4 m ρ c (Proc.devRef .tc main_v46)) := by
  have e : V5 m ρ c main_v57 = shapeCast S1x128 (Cert.ReferenceIdeal.Layer.colMean (F := Ideal) (W4 m ρ c (Proc.devRef .tc main_v46))) shapeCasts_S128_S1x128 := by
    show StableHlo.after hostOps1 (W4 m ρ c) (Proc.devRef .tc main_v57) = _
    after_results_simp
    rfl
  rw [e]
  exact rowCols_cast _ _

/-- The variance row the second region finds is the column variances of the first region's output. -/
theorem entry_var (c : Dev nD) :
    Cert.Layer.rowCols (V5 m ρ c main_v58) = Cert.ReferenceIdeal.Layer.colVar (F := Ideal) (W4 m ρ c (Proc.devRef .tc main_v46)) := by
  have e : V5 m ρ c main_v58 = shapeCast S1x128 (Cert.ReferenceIdeal.Layer.colVar (F := Ideal) (W4 m ρ c (Proc.devRef .tc main_v46))) shapeCasts_S128_S1x128 := by
    show StableHlo.after hostOps1 (W4 m ρ c) (Proc.devRef .tc main_v58) = _
    after_results_simp
    rfl
  rw [e]
  exact rowCols_cast _ _

/-- The scale argument is as launched when the host lays it out as a row. -/
theorem kept_gamma (c : Dev nD) : W4 m ρ c (Proc.devRef .tc main_arg3) = m ((c : Thread nD τ).loc main_arg3) := by
  have e5 : W5 m ρ c (Proc.devRef .tc main_arg3) = W4 m ρ c (Proc.devRef .tc main_arg3) := by
    show StableHlo.after hostOps1 (W4 m ρ c) (Proc.devRef .tc main_arg3) = _
    after_results_simp
  have e6 : W6 m ρ c (Proc.devRef .tc main_arg3) = W5 m ρ c (Proc.devRef .tc main_arg3) := W6_of_ne m ρ c main_arg3 (by decide)
  exact (e5.symm.trans e6.symm).trans (W6_main_arg3 m ρ c)

/-- The shift argument is as launched when the host lays it out as a row. -/
theorem kept_beta (c : Dev nD) : W4 m ρ c (Proc.devRef .tc main_arg4) = m ((c : Thread nD τ).loc main_arg4) := by
  have e5 : W5 m ρ c (Proc.devRef .tc main_arg4) = W4 m ρ c (Proc.devRef .tc main_arg4) := by
    show StableHlo.after hostOps1 (W4 m ρ c) (Proc.devRef .tc main_arg4) = _
    after_results_simp
  have e6 : W6 m ρ c (Proc.devRef .tc main_arg4) = W5 m ρ c (Proc.devRef .tc main_arg4) := W6_of_ne m ρ c main_arg4 (by decide)
  exact (e5.symm.trans e6.symm).trans (W6_main_arg4 m ρ c)

/-- The scale row the second region finds is the scale argument. -/
theorem entry_gamma (c : Dev nD) : Cert.Layer.rowCols (V5 m ρ c main_v59) = m ((c : Thread nD τ).loc main_arg3) := by
  have e : V5 m ρ c main_v59 = shapeCast S1x128 (W4 m ρ c (Proc.devRef .tc main_arg3)) shapeCasts_S128_S1x128 := by
    show StableHlo.after hostOps1 (W4 m ρ c) (Proc.devRef .tc main_v59) = _
    after_results_simp
    rfl
  rw [e, kept_gamma]
  exact rowCols_cast _ _

/-- The shift row the second region finds is the shift argument. -/
theorem entry_beta (c : Dev nD) : Cert.Layer.rowCols (V5 m ρ c main_v60) = m ((c : Thread nD τ).loc main_arg4) := by
  have e : V5 m ρ c main_v60 = shapeCast S1x128 (W4 m ρ c (Proc.devRef .tc main_arg4)) shapeCasts_S128_S1x128 := by
    show StableHlo.after hostOps1 (W4 m ρ c) (Proc.devRef .tc main_v60) = _
    after_results_simp
    rfl
  rw [e, kept_beta]
  exact rowCols_cast _ _

end Cert.KernelIdeal.Between

end
-- ==== Proof.KernelValue.lean ====
/-
  The idealized kernel's result array as a function of the launch contents.

  The second region's output array is `normTanh` of the arrays that region finds; those are the first region's output
  `y`, the input features, and the rows holding the column means and variances of `y` and the two affine parameters. The
  first region's output is `linRelu` of the aggregated features and the transposed weights, both computed from the
  arguments by the reference's own operations. Composed, the result is exactly the reference's result stage of the launch
  contents.
-/
import proofs.«130645_j51994874085711_1_alg».proof.Proof.KernelRun
import proofs.«130645_j51994874085711_1_alg».proof.Proof.LinearBlocks
import proofs.«130645_j51994874085711_1_alg».proof.Proof.NormBlocks
import proofs.«130645_j51994874085711_1_alg».proof.Proof.HostBetween

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first region's output array is the rectified product of the reference's aggregated features and transposed
    weights of the launch contents. -/
theorem first_eq (c : Dev nD) :
    (dat0 (F := Ideal) (V3 m ρ) c).arrAt 2 cfg0.N
      = Cert.Layer.linRelu
          (Cert.ReferenceIdeal.ReadP.val_main_v44 (F := Ideal) (m ((c : Thread nD τ).loc main_arg0)) (m ((c : Thread nD τ).loc main_arg1)))
          (Cert.ReferenceIdeal.ReadP.val_main_v45 (F := Ideal) (m ((c : Thread nD τ).loc main_arg2))) := by
  rw [Cert.KernelIdeal.Lin.arr_eq (V3 m ρ) c, Cert.KernelIdeal.Between.entry_features, Cert.KernelIdeal.Between.entry_weights]

/-- The result buffer's final contents are the reference's result stage of the launch contents. -/
theorem result_eq (c : Dev nD) :
    W6 m ρ c (Proc.devRef .tc main_v61)
      = Cert.ReferenceIdeal.ReadP.val_main_v74 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have hW4 := (W4_arr m ρ c 2).trans (first_eq m ρ c)
  rw [Cert.KernelIdeal.Out.out_eq, Cert.KernelIdeal.Norm.arr_eq (V5 m ρ) c, Cert.KernelIdeal.Between.entry_y, first_eq,
    Cert.KernelIdeal.Between.entry_x, Cert.KernelIdeal.Between.entry_mean, Cert.KernelIdeal.Between.entry_var, hW4,
    Cert.KernelIdeal.Between.entry_gamma, Cert.KernelIdeal.Between.entry_beta]
  exact (Cert.ReferenceIdeal.Layer.result_eq _ _ _ _ _).symm

end Cert.KernelIdeal.Result

end
-- ==== Proof.lean ====
/-
  A graph-network layer: normalised-adjacency aggregation, a linear map with rectification, batch normalisation with an
  affine map, a hyperbolic tangent and a residual — the kernel's two pipelined regions against the plain reference.

  Both programs compute the aggregation `h` and the transposed weights by the same host operations. The kernel's first
  region computes `y = max(h · Wᵀ, 0)` block of 2000 rows by block (its operands narrowed to bf16 on the way, which on the
  extended reals is the identity); the host then takes the column means and biased variances of `y`, exactly as the
  reference does; the second region computes `tanh((y − mean) · (var + ε)^(−1/2) · gamma + beta) + x` block by block, the
  reference the same expression on whole arrays. Entry by entry the two results are the same expression of the same
  arrays, in the same order of operations: no law of arithmetic, and no finiteness of the inputs, is used.
  The three frames: the two kernels' are the generated ones; the reference's is its run with the result forgotten. The
  idealization rewrote no operation, so there is nothing to preserve.
-/
import proofs.«130645_j51994874085711_1_alg».proof.Defs
import proofs.«130645_j51994874085711_1_alg».proof.Proof.Gen.Kernel
import proofs.«130645_j51994874085711_1_alg».proof.Proof.Gen.Kernel.Skeleton
import proofs.«130645_j51994874085711_1_alg».proof.Proof.Gen.Kernel.Launch
import proofs.«130645_j51994874085711_1_alg».proof.Proof.Gen.Kernel.Points
import proofs.«130645_j51994874085711_1_alg».proof.Proof.Gen.Kernel.Frame
import proofs.«130645_j51994874085711_1_alg».proof.Proof.Gen.KernelIdeal
import proofs.«130645_j51994874085711_1_alg».proof.Proof.Gen.KernelIdeal.Skeleton
import proofs.«130645_j51994874085711_1_alg».proof.Proof.Gen.KernelIdeal.Launch
import proofs.«130645_j51994874085711_1_alg».proof.Proof.Gen.KernelIdeal.Points
import proofs.«130645_j51994874085711_1_alg».proof.Proof.Gen.KernelIdeal.Frame
import proofs.«130645_j51994874085711_1_alg».proof.Proof.Gen.ReferenceIdeal
import proofs.«130645_j51994874085711_1_alg».proof.Proof.Gen.Pre_finite_inputs
import proofs.«130645_j51994874085711_1_alg».proof.Proof.RefRunPatched
import proofs.«130645_j51994874085711_1_alg».proof.Proof.RefReadPatched
import proofs.«130645_j51994874085711_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same result array: the reference's
    result stage of the kernel's launch contents. -/
theorem algebraic : Cert.algebraic_KernelIdeal_ReferenceIdeal := by
  intro m ρ m' ρ' _ hagree
  refine ⟨fun c => Cert.ReferenceIdeal.ReadP.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.result_eq m ρ c), (h c).2⟩)
      (Cert.KernelIdeal.Out.run_out (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v74_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
